-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x4 : Shape := ⟨3, ![128, 4096, 4]⟩
abbrev S_ : Shape := ⟨0, ![]⟩

class Facts : Prop where
  bcast_S_S128x4096x4 : S_.BroadcastsInDim S128x4096x4 (![] : Fin 0 → Fin S128x4096x4.rank)
  reducesTo_S128x4096x4_S_d0_1_2 : S128x4096x4.ReducesTo [0, 1, 2] S_
  h_S_ : 0 < S_.numel

variable [Facts]

def fn {F : FTy → Type} [FloatOps F] (main_arg0 : FVec F S128x4096x4 .f32) : IVec S_ 1 :=
  let main_v0 : FVec F S128x4096x4 .f32 := Host.absf main_arg0
  let main_cst : FVec F S_ .f32 := constant S_ .f32 0x7F800000#32
  let main_v1 : FVec F S128x4096x4 .f32 := broadcastInDim S128x4096x4 ![] bcast_S_S128x4096x4 main_cst
  let main_v2 : IVec S128x4096x4 1 := cmpf .olt main_v0 main_v1
  let main_c : IVec S_ 1 := constantI S_ 1 1#1
  let main_v3 : IVec S_ 1 := (fun x v => Host.reduce IntOp.andi x v reducesTo_S128x4096x4_S_d0_1_2 h_S_) main_v2 main_c
  main_v3
-- ==== Kernel.lean ====
abbrev S128x4096x4 : Shape := ⟨3, ![128, 4096, 4]⟩
abbrev S128x4x4096 : Shape := ⟨3, ![128, 4, 4096]⟩
abbrev S_ : Shape := ⟨0, ![]⟩
abbrev S128x4x4127 : Shape := ⟨3, ![128, 4, 4127]⟩
abbrev S128x4065x128 : Shape := ⟨3, ![128, 4065, 128]⟩
abbrev S64x4x4127 : Shape := ⟨3, ![64, 4, 4127]⟩
abbrev S64x128x128 : Shape := ⟨3, ![64, 128, 128]⟩
abbrev S64x4x159 : Shape := ⟨3, ![64, 4, 159]⟩
abbrev S64x4x128 : Shape := ⟨3, ![64, 4, 128]⟩
abbrev S64x128x4 : Shape := ⟨3, ![64, 128, 4]⟩
abbrev S128x4065x32x4 : Shape := ⟨4, ![128, 4065, 32, 4]⟩

abbrev nBuf : Space → Nat
  | .hbm => 7
  | .vmem => 4
  | .smem => 0
  | _ => 0

abbrev bufTy : (tb : Table) → Fin (tcTables nBuf tb) → BufTy
  | .hbm, ⟨0, _⟩ => ⟨S128x4096x4, .f32⟩
  | .hbm, ⟨1, _⟩ => ⟨S128x4x4096, .f32⟩
  | .hbm, ⟨2, _⟩ => ⟨S_, .i32⟩
  | .hbm, ⟨3, _⟩ => ⟨S_, .f32⟩
  | .hbm, ⟨4, _⟩ => ⟨S128x4x4127, .f32⟩
  | .hbm, ⟨5, _⟩ => ⟨S128x4065x128, .f32⟩
  | .hbm, ⟨6, _⟩ => ⟨S128x4065x32x4, .f32⟩
  | .local _ .vmem, ⟨0, _⟩ => ⟨S64x4x4127, .f32⟩
  | .local _ .vmem, ⟨1, _⟩ => ⟨S64x4x4127, .f32⟩
  | .local _ .vmem, ⟨2, _⟩ => ⟨S64x128x128, .f32⟩
  | .local _ .vmem, ⟨3, _⟩ => ⟨S64x128x128, .f32⟩
  | _, _ => ⟨S128x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0 : Index := 0#32
  let c0_0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, 0, v2.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x4x4127 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S128x4096x4_S128x4x4096_0_2_1 : S128x4096x4.Transposes [0, 2, 1] S128x4x4096
  pads_S128x4x4096_S128x4x4127_000_000_0310 : S128x4x4096.Pads (![0, 0, 0] : Fin 3 → Nat) ![0, 0, 31] ![0, 0, 0] S128x4x4127
  h_S_ : 0 < S_.numel
  h_S64x4x159 : 0 < S64x4x159.numel
  shapeCasts_S64x4x159_S64x4x159 : S64x4x159.ShapeCasts S64x4x159
  slices_S64x4x159_o0_0_0_S64x4x128 : S64x4x159.Slices ![0, 0, 0] S64x4x128
  transposes_S64x4x128_p0_2_1_S64x128x4 : S64x4x128.Transposes [0, 2, 1] S64x128x4
  inb_S64x128x128_S64x128x4_0_0_0 : ∀ a, (![0, 0, 0] : Fin 3 → Nat) a + S64x128x4.size a ≤ S64x128x128.size a
  h_S64x128x4 : 0 < S64x128x4.numel
  slices_S64x4x159_o0_0_1_S64x4x128 : S64x4x159.Slices ![0, 0, 1] S64x4x128
  inb_S64x128x128_S64x128x4_0_0_4 : ∀ a, (![0, 0, 4] : Fin 3 → Nat) a + S64x128x4.size a ≤ S64x128x128.size a
  slices_S64x4x159_o0_0_2_S64x4x128 : S64x4x159.Slices ![0, 0, 2] S64x4x128
  inb_S64x128x128_S64x128x4_0_0_8 : ∀ a, (![0, 0, 8] : Fin 3 → Nat) a + S64x128x4.size a ≤ S64x128x128.size a
  slices_S64x4x159_o0_0_3_S64x4x128 : S64x4x159.Slices ![0, 0, 3] S64x4x128
  inb_S64x128x128_S64x128x4_0_0_12 : ∀ a, (![0, 0, 12] : Fin 3 → Nat) a + S64x128x4.size a ≤ S64x128x128.size a
  slices_S64x4x159_o0_0_4_S64x4x128 : S64x4x159.Slices ![0, 0, 4] S64x4x128
  inb_S64x128x128_S64x128x4_0_0_16 : ∀ a, (![0, 0, 16] : Fin 3 → Nat) a + S64x128x4.size a ≤ S64x128x128.size a
  slices_S64x4x159_o0_0_5_S64x4x128 : S64x4x159.Slices ![0, 0, 5] S64x4x128
  inb_S64x128x128_S64x128x4_0_0_20 : ∀ a, (![0, 0, 20] : Fin 3 → Nat) a + S64x128x4.size a ≤ S64x128x128.size a
  slices_S64x4x159_o0_0_6_S64x4x128 : S64x4x159.Slices ![0, 0, 6] S64x4x128
  inb_S64x128x128_S64x128x4_0_0_24 : ∀ a, (![0, 0, 24] : Fin 3 → Nat) a + S64x128x4.size a ≤ S64x128x128.size a
  slices_S64x4x159_o0_0_7_S64x4x128 : S64x4x159.Slices ![0, 0, 7] S64x4x128
  inb_S64x128x128_S64x128x4_0_0_28 : ∀ a, (![0, 0, 28] : Fin 3 → Nat) a + S64x128x4.size a ≤ S64x128x128.size a
  slices_S64x4x159_o0_0_8_S64x4x128 : S64x4x159.Slices ![0, 0, 8] S64x4x128
  inb_S64x128x128_S64x128x4_0_0_32 : ∀ a, (![0, 0, 32] : Fin 3 → Nat) a + S64x128x4.size a ≤ S64x128x128.size a
  slices_S64x4x159_o0_0_9_S64x4x128 : S64x4x159.Slices ![0, 0, 9] S64x4x128
  inb_S64x128x128_S64x128x4_0_0_36 : ∀ a, (![0, 0, 36] : Fin 3 → Nat) a + S64x128x4.size a ≤ S64x128x128.size a
  slices_S64x4x159_o0_0_10_S64x4x128 : S64x4x159.Slices ![0, 0, 10] S64x4x128
  inb_S64x128x128_S64x128x4_0_0_40 : ∀ a, (![0, 0, 40] : Fin 3 → Nat) a + S64x128x4.size a ≤ S64x128x128.size a
  slices_S64x4x159_o0_0_11_S64x4x128 : S64x4x159.Slices ![0, 0, 11] S64x4x128
  inb_S64x128x128_S64x128x4_0_0_44 : ∀ a, (![0, 0, 44] : Fin 3 → Nat) a + S64x128x4.size a ≤ S64x128x128.size a
  slices_S64x4x159_o0_0_12_S64x4x128 : S64x4x159.Slices ![0, 0, 12] S64x4x128
  inb_S64x128x128_S64x128x4_0_0_48 : ∀ a, (![0, 0, 48] : Fin 3 → Nat) a + S64x128x4.size a ≤ S64x128x128.size a
  slices_S64x4x159_o0_0_13_S64x4x128 : S64x4x159.Slices ![0, 0, 13] S64x4x128
  inb_S64x128x128_S64x128x4_0_0_52 : ∀ a, (![0, 0, 52] : Fin 3 → Nat) a + S64x128x4.size a ≤ S64x128x128.size a
  slices_S64x4x159_o0_0_14_S64x4x128 : S64x4x159.Slices ![0, 0, 14] S64x4x128
  inb_S64x128x128_S64x128x4_0_0_56 : ∀ a, (![0, 0, 56] : Fin 3 → Nat) a + S64x128x4.size a ≤ S64x128x128.size a
  slices_S64x4x159_o0_0_15_S64x4x128 : S64x4x159.Slices ![0, 0, 15] S64x4x128
  inb_S64x128x128_S64x128x4_0_0_60 : ∀ a, (![0, 0, 60] : Fin 3 → Nat) a + S64x128x4.size a ≤ S64x128x128.size a
  slices_S64x4x159_o0_0_16_S64x4x128 : S64x4x159.Slices ![0, 0, 16] S64x4x128
  inb_S64x128x128_S64x128x4_0_0_64 : ∀ a, (![0, 0, 64] : Fin 3 → Nat) a + S64x128x4.size a ≤ S64x128x128.size a
  slices_S64x4x159_o0_0_17_S64x4x128 : S64x4x159.Slices ![0, 0, 17] S64x4x128
  inb_S64x128x128_S64x128x4_0_0_68 : ∀ a, (![0, 0, 68] : Fin 3 → Nat) a + S64x128x4.size a ≤ S64x128x128.size a
  slices_S64x4x159_o0_0_18_S64x4x128 : S64x4x159.Slices ![0, 0, 18] S64x4x128
  inb_S64x128x128_S64x128x4_0_0_72 : ∀ a, (![0, 0, 72] : Fin 3 → Nat) a + S64x128x4.size a ≤ S64x128x128.size a
  slices_S64x4x159_o0_0_19_S64x4x128 : S64x4x159.Slices ![0, 0, 19] S64x4x128
  inb_S64x128x128_S64x128x4_0_0_76 : ∀ a, (![0, 0, 76] : Fin 3 → Nat) a + S64x128x4.size a ≤ S64x128x128.size a
  slices_S64x4x159_o0_0_20_S64x4x128 : S64x4x159.Slices ![0, 0, 20] S64x4x128
  inb_S64x128x128_S64x128x4_0_0_80 : ∀ a, (![0, 0, 80] : Fin 3 → Nat) a + S64x128x4.size a ≤ S64x128x128.size a
  slices_S64x4x159_o0_0_21_S64x4x128 : S64x4x159.Slices ![0, 0, 21] S64x4x128
  inb_S64x128x128_S64x128x4_0_0_84 : ∀ a, (![0, 0, 84] : Fin 3 → Nat) a + S64x128x4.size a ≤ S64x128x128.size a
  slices_S64x4x159_o0_0_22_S64x4x128 : S64x4x159.Slices ![0, 0, 22] S64x4x128
  inb_S64x128x128_S64x128x4_0_0_88 : ∀ a, (![0, 0, 88] : Fin 3 → Nat) a + S64x128x4.size a ≤ S64x128x128.size a
  slices_S64x4x159_o0_0_23_S64x4x128 : S64x4x159.Slices ![0, 0, 23] S64x4x128
  inb_S64x128x128_S64x128x4_0_0_92 : ∀ a, (![0, 0, 92] : Fin 3 → Nat) a + S64x128x4.size a ≤ S64x128x128.size a
  slices_S64x4x159_o0_0_24_S64x4x128 : S64x4x159.Slices ![0, 0, 24] S64x4x128
  inb_S64x128x128_S64x128x4_0_0_96 : ∀ a, (![0, 0, 96] : Fin 3 → Nat) a + S64x128x4.size a ≤ S64x128x128.size a
  slices_S64x4x159_o0_0_25_S64x4x128 : S64x4x159.Slices ![0, 0, 25] S64x4x128
  inb_S64x128x128_S64x128x4_0_0_100 : ∀ a, (![0, 0, 100] : Fin 3 → Nat) a + S64x128x4.size a ≤ S64x128x128.size a
  slices_S64x4x159_o0_0_26_S64x4x128 : S64x4x159.Slices ![0, 0, 26] S64x4x128
  inb_S64x128x128_S64x128x4_0_0_104 : ∀ a, (![0, 0, 104] : Fin 3 → Nat) a + S64x128x4.size a ≤ S64x128x128.size a
  slices_S64x4x159_o0_0_27_S64x4x128 : S64x4x159.Slices ![0, 0, 27] S64x4x128
  inb_S64x128x128_S64x128x4_0_0_108 : ∀ a, (![0, 0, 108] : Fin 3 → Nat) a + S64x128x4.size a ≤ S64x128x128.size a
  slices_S64x4x159_o0_0_28_S64x4x128 : S64x4x159.Slices ![0, 0, 28] S64x4x128
  inb_S64x128x128_S64x128x4_0_0_112 : ∀ a, (![0, 0, 112] : Fin 3 → Nat) a + S64x128x4.size a ≤ S64x128x128.size a
  slices_S64x4x159_o0_0_29_S64x4x128 : S64x4x159.Slices ![0, 0, 29] S64x4x128
  inb_S64x128x128_S64x128x4_0_0_116 : ∀ a, (![0, 0, 116] : Fin 3 → Nat) a + S64x128x4.size a ≤ S64x128x128.size a
  slices_S64x4x159_o0_0_30_S64x4x128 : S64x4x159.Slices ![0, 0, 30] S64x4x128
  inb_S64x128x128_S64x128x4_0_0_120 : ∀ a, (![0, 0, 120] : Fin 3 → Nat) a + S64x128x4.size a ≤ S64x128x128.size a
  slices_S64x4x159_o0_0_31_S64x4x128 : S64x4x159.Slices ![0, 0, 31] S64x4x128
  inb_S64x128x128_S64x128x4_0_0_124 : ∀ a, (![0, 0, 124] : Fin 3 → Nat) a + S64x128x4.size a ≤ S64x128x128.size a
  shapeCasts_S128x4065x128_S128x4065x32x4 : S128x4065x128.ShapeCasts S128x4065x32x4
  hrank0 : 0 < grid0.rank
  k0_mult1_dvd : ∀ i : grid0.Coords, 128 ∣ (k0_mult1 i).toNat
  k0_off1_inb : ∀ i : grid0.Coords, ∀ a, (k0_off1 i) a + S64x4x159.size a ≤ S64x4x4127.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4x4127.size a ≤ S128x4x4127.size a
  hwx0_0 : ∀ i : grid0.Coords, EltTy.bits .f32 = 32 ∨ (Rect.block (s := S128x4x4127) S64x4x4127.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x128x128.size a < S128x4065x128.size a
  hwx0_1 : ∀ i : grid0.Coords, EltTy.bits .f32 = 32 ∨ (Rect.unit (s := S128x4065x128) (fun a => cc0_transform_1 i a * S64x128x128.size a) (fun a => (Pipeline.Clip.of (cc0_transform_1 i a) (S64x128x128.size a) (S128x4065x128.size a)).extent (S64x128x128.size a)) fun a => Pipeline.Clip.inb (Pipeline.Clip.ok_of (hstart0_1 i a))).WholeWords (EltTy.packing .f32)
  hwxs0_1 : ∀ i : grid0.Coords, EltTy.bits .f32 = 32 ∨ (Rect.unit (s := S64x128x128) (fun _ => 0) (fun a => (Pipeline.Clip.of (cc0_transform_1 i a) (S64x128x128.size a) (S128x4065x128.size a)).extent (S64x128x128.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v1) S64x4x4127.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S64x128x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x4096x4 : Shape := ⟨3, ![128, 4096, 4]⟩
abbrev S4065 : Shape := ⟨1, ![4065]⟩
abbrev S4065x1 : Shape := ⟨2, ![4065, 1]⟩
abbrev S32 : Shape := ⟨1, ![32]⟩
abbrev S1x32 : Shape := ⟨2, ![1, 32]⟩
abbrev S4065x32 : Shape := ⟨2, ![4065, 32]⟩
abbrev S_ : Shape := ⟨0, ![]⟩
abbrev S4065x32x1 : Shape := ⟨3, ![4065, 32, 1]⟩
abbrev S128x4065x32x4 : Shape := ⟨4, ![128, 4065, 32, 4]⟩

abbrev nBuf : Space → Nat
  | .hbm => 17
  | .vmem => 0
  | .smem => 0
  | _ => 0

abbrev bufTy : (tb : Table) → Fin (tcTables nBuf tb) → BufTy
  | .hbm, ⟨0, _⟩ => ⟨S128x4096x4, .f32⟩
  | .hbm, ⟨1, _⟩ => ⟨S4065, .i32⟩
  | .hbm, ⟨2, _⟩ => ⟨S4065x1, .i32⟩
  | .hbm, ⟨3, _⟩ => ⟨S32, .i32⟩
  | .hbm, ⟨4, _⟩ => ⟨S1x32, .i32⟩
  | .hbm, ⟨5, _⟩ => ⟨S4065x32, .i32⟩
  | .hbm, ⟨6, _⟩ => ⟨S4065x32, .i32⟩
  | .hbm, ⟨7, _⟩ => ⟨S4065x32, .i32⟩
  | .hbm, ⟨8, _⟩ => ⟨S_, .i32⟩
  | .hbm, ⟨9, _⟩ => ⟨S4065x32, .i32⟩
  | .hbm, ⟨10, _⟩ => ⟨S4065x32, .i1⟩
  | .hbm, ⟨11, _⟩ => ⟨S_, .i32⟩
  | .hbm, ⟨12, _⟩ => ⟨S4065x32, .i32⟩
  | .hbm, ⟨13, _⟩ => ⟨S4065x32, .i32⟩
  | .hbm, ⟨14, _⟩ => ⟨S4065x32, .i32⟩
  | .hbm, ⟨15, _⟩ => ⟨S4065x32x1, .i32⟩
  | .hbm, ⟨16, _⟩ => ⟨S128x4065x32x4, .f32⟩
  | _, _ => ⟨S128x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  bcast_S4065_S4065x1_0 : S4065.BroadcastsInDim S4065x1 (![0] : Fin 1 → Fin S4065x1.rank)
  bcast_S32_S1x32_1 : S32.BroadcastsInDim S1x32 (![1] : Fin 1 → Fin S1x32.rank)
  bcast_S4065x1_S4065x32_0_1 : S4065x1.BroadcastsInDim S4065x32 (![0, 1] : Fin 2 → Fin S4065x32.rank)
  bcast_S1x32_S4065x32_0_1 : S1x32.BroadcastsInDim S4065x32 (![0, 1] : Fin 2 → Fin S4065x32.rank)
  bcast_S_S4065x32 : S_.BroadcastsInDim S4065x32 (![] : Fin 0 → Fin S4065x32.rank)
  bcast_S4065x32_S4065x32x1_0_1 : S4065x32.BroadcastsInDim S4065x32x1 (![0, 1] : Fin 2 → Fin S4065x32x1.rank)
  gather_S128x4096x4_S4065x32x1_S128x4065x32x4_03_1_n_n_1_2_12814_wf : GatherDims.WF S128x4096x4 S4065x32x1 S128x4065x32x4 [0, 3] [1] [] [1] [] 2 ![128, 1, 4]

variable [Facts₀]

def gather_S128x4096x4_S4065x32x1_S128x4065x32x4_03_1_n_n_1_2_12814 : GatherDims S128x4096x4 S4065x32x1 S128x4065x32x4 where
  offsetDims := [0, 3]
  collapsedSliceDims := [1]
  operandBatchingDims := []
  startIndicesBatchingDims := []
  startIndexMap := [1]
  indexVectorDim := 2
  sliceSizes := ![128, 1, 4]
  wf := gather_S128x4096x4_S4065x32x1_S128x4065x32x4_03_1_n_n_1_2_12814_wf

class Facts : Prop extends Facts₀ where

variable [Facts]
-- ==== Proof.Windows.lean ====
/-
  The unfolding of a sequence into overlapping windows, as one function of the argument array.

  For x : [128, 4096, 4] the result at (b, w, f, c), with 0 ≤ w < 4065 and 0 ≤ f < 32, is x at (b, w + f, c):
  window w holds the 32 consecutive sequence positions w, w+1, …, w+31, and w + f ≤ 4064 + 31 = 4095 stays inside
  the sequence axis.
-/
import Idealize.ShloMosaic.PureOps.Ideal
import Idealize.ShloMosaic.Lib.ValueIdx

noncomputable section

namespace Cert.Unfold

open Idealize.ShloMosaic Idealize.ShloMosaic.ValueIdx

/-- Position `w + f` of the sequence axis, for window `w < 4065` and offset `f < 32` inside it. -/
def pos (w : Fin 4065) (f : Fin 32) : Fin 4096 := ⟨w.val + f.val, by omega⟩

/-- The windows of `x`: entry `(b, w, f, c)` is `x` at `(b, w + f, c)`. -/
def windows {α : Type} (x : (⟨3, ![128, 4096, 4]⟩ : Shape).Idx → α) : (⟨4, ![128, 4065, 32, 4]⟩ : Shape).Idx → α :=
  fun j => x (ix3 (j 0) (pos (j 1) (j 2)) (j 3))

theorem windows_apply {α : Type} (x : (⟨3, ![128, 4096, 4]⟩ : Shape).Idx → α) (b : Fin 128) (w : Fin 4065) (f : Fin 32) (c : Fin 4) :
    windows x (ix4 b w f c) = x (ix3 b (pos w f) c) := rfl

end Cert.Unfold

end
-- ==== Proof.Reference.lean ====
/-
  The reference program read as one function of its argument: it is the unfolding of the sequence axis into
  overlapping windows (Windows.lean). Three steps: the gather read at an index, the start indices' values, the two combined.
-/
import proofs.«155097_j34222299414942_2_alg».proof.Proof.Gen.ReferenceIdeal.Read
import proofs.«155097_j34222299414942_2_alg».proof.Proof.Windows
import Idealize.ShloMosaic.Lib.ValueIdx
import Idealize.ShloMosaic.Lib.WordArith

noncomputable section

namespace Cert.Unfold.Ref

open Idealize.ShloMosaic Idealize.ShloMosaic.ValueIdx Cert.ReferenceIdeal Cert.ReferenceIdeal.Gen Cert.ReferenceIdeal.Read

/-- The gather's dimension numbers: offset axes 0 and 3 of the result, operand axis 1 collapsed and the one axis the
    start index names, slices of sizes 128, 1, 4. -/
abbrev gd : GatherDims S128x4096x4 S4065x32x1 S128x4065x32x4 :=
  gather_S128x4096x4_S4065x32x1_S128x4065x32x4_03_1_n_n_1_2_12814

/-- The gather read at `(b, w, f, c)`: axes 0 and 2 of the operand are taken whole and read at the offset coordinates
    `b` and `c`; axis 1 is read at the start index `idx (w, f, 0)`, taken as a signed integer and clamped into `[0, 4095]`. -/
theorem gather_apply {α : Type} {n : Nat} (x : S128x4096x4.Idx → α) (idx : IVec S4065x32x1 n)
    (b : Fin 128) (w : Fin 4065) (f : Fin 32) (c : Fin 4) :
    Host.gather gd x idx (ix4 b w f c)
      = x (ix3 b ⟨min (idx (ix3 w f 0)).toInt.toNat 4095, by omega⟩ c) := by
  unfold Host.gather
  congr 1
  funext a
  refine Fin.ext ?_
  match a with
  | ⟨0, _⟩ =>
    show gd.start (ix4 b w f c) idx 0 + gd.batchCoord (ix4 b w f c) 0 + gd.offCoord (ix4 b w f c) 0 = b.val
    have h1 : gd.start (ix4 b w f c) idx 0 = 0 := by
      unfold GatherDims.start; rw [dif_neg (by decide)]
    have h2 : gd.batchCoord (ix4 b w f c) 0 = 0 := GatherDims.batchCoord_eq_zero _ _ _ List.not_mem_nil
    have h3 : gd.offCoord (ix4 b w f c) 0 = b.val := by
      unfold GatherDims.offCoord; rw [dif_pos (by decide)]; rfl
    omega
  | ⟨1, _⟩ =>
    show gd.start (ix4 b w f c) idx 1 + gd.batchCoord (ix4 b w f c) 1 + gd.offCoord (ix4 b w f c) 1
      = min (idx (ix3 w f 0)).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix4 b w f c) ⟨List.idxOf (1 : Fin 3) gd.startIndexMap,
        List.idxOf_lt_length_iff.2 (List.mem_singleton.mpr rfl)⟩ = ix3 w f 0 := by
      funext e; refine Fin.ext ?_
      match e with
      | ⟨0, _⟩ => rfl
      | ⟨1, _⟩ => rfl
      | ⟨2, _⟩ => rfl
    rw [hsi]
    rfl
  | ⟨2, _⟩ =>
    show gd.start (ix4 b w f c) idx 2 + gd.batchCoord (ix4 b w f c) 2 + gd.offCoord (ix4 b w f c) 2 = c.val
    have h1 : gd.start (ix4 b w f c) idx 2 = 0 := by
      unfold GatherDims.start; rw [dif_neg (by decide)]
    have h2 : gd.batchCoord (ix4 b w f c) 2 = 0 := GatherDims.batchCoord_eq_zero _ _ _ List.not_mem_nil
    have h3 : gd.offCoord (ix4 b w f c) 2 = c.val := by
      unfold GatherDims.offCoord; rw [dif_pos (by decide)]; rfl
    omega

/-! ## The start indices: entry `(w, f, 0)` is the word of `w + f` -/

section Indices
variable {F : FTy → Type} [FloatOps F]

/-- The window number, broadcast along the offsets. -/
theorem v4_at (w : Fin 4065) (f : Fin 32) : val_main_v4 (F := F) (ix2 w f) = BitVec.ofNat 32 w.val := by
  rw [val_main_v4_apply, val_main_v1_apply, val_main_v0_apply]

/-- The offset inside a window, broadcast along the windows. -/
theorem v5_at (w : Fin 4065) (f : Fin 32) : val_main_v5 (F := F) (ix2 w f) = BitVec.ofNat 32 f.val := by
  rw [val_main_v5_apply, val_main_v3_apply, val_main_v2_apply]

/-- Their sum is the word of `w + f`. -/
theorem v6_at (w : Fin 4065) (f : Fin 32) : val_main_v6 (F := F) (ix2 w f) = BitVec.ofNat 32 (w.val + f.val) := by
  rw [val_main_v6_apply, v4_at, v5_at, BitVec.ofNat_add]
  rfl

/-- `w + f` is not negative, so the wrap-around of negative indices leaves it alone. -/
theorem v11_at (w : Fin 4065) (f : Fin 32) : val_main_v11 (F := F) (ix2 w f) = BitVec.ofNat 32 (w.val + f.val) := by
  have hw := w.isLt
  have hf := f.isLt
  have hlt : (BitVec.ofNat 32 (w.val + f.val)).slt 0#32 = false := by
    simp only [BitVec.slt, BitVec.toInt_zero, decide_eq_false_iff_not, Int.not_lt]
    rw [WordArith.toInt_ofNat_small _ (by omega)]
    omega
  rw [val_main_v11_apply, val_main_v8_apply, val_main_v7_apply, val_main_c_apply, v6_at]
  show Scalar.select (BitVec.ofBool ((BitVec.ofNat 32 (w.val + f.val)).slt 0#32)) _ _ = _
  rw [hlt]
  exact select_zero _ _

/-- The start index of window `w`, offset `f`. -/
theorem v12_at (w : Fin 4065) (f : Fin 32) :
    val_main_v12 (F := F) (ix3 w f 0) = BitVec.ofNat 32 (w.val + f.val) := by
  rw [val_main_v12_apply]
  have hi : idx_main_v12 (ix3 w f (0 : Fin 1)) = ix2 w f := by
    funext a
    match a with
    | ⟨0, _⟩ => rfl
    | ⟨1, _⟩ => rfl
  rw [hi]
  exact v11_at w f

/-- Read signed and clamped into the sequence axis, the start index is `w + f`: it is below `2 ^ 31` and at most
    `4064 + 31 = 4095`. -/
theorem start_at (w : Fin 4065) (f : Fin 32) :
    min (val_main_v12 (F := F) (ix3 w f 0)).toInt.toNat 4095 = w.val + f.val := by
  have hw := w.isLt
  have hf := f.isLt
  rw [v12_at, WordArith.toInt_ofNat_small _ (by omega)]
  omega

end Indices

/-! ## The reference is the windows -/

/-- Entry `(b, w, f, c)` of the reference's result is `x` at `(b, w + f, c)`. -/
theorem reference_windows_at {F : FTy → Type} [FloatOps F]
    (x : (⟨Cert.ReferenceIdeal.S128x4096x4, .f32⟩ : BufTy).Contents (Elt F))
    (b : Fin 128) (w : Fin 4065) (f : Fin 32) (c : Fin 4) :
    Cert.ReferenceIdeal.Read.val_main_v13 (F := F) x (ix4 b w f c) = Cert.Unfold.windows x (ix4 b w f c) := by
  refine (gather_apply x (val_main_v12 (F := F)) b w f c).trans ?_
  rw [windows_apply]
  congr 1
  funext a
  match a with
  | ⟨0, _⟩ => rfl
  | ⟨1, _⟩ => exact Fin.ext (start_at w f)
  | ⟨2, _⟩ => rfl

/-- The reference's result is the windows of its argument, for any float values. -/
theorem reference_windows {F : FTy → Type} [FloatOps F]
    (x : (⟨Cert.ReferenceIdeal.S128x4096x4, .f32⟩ : BufTy).Contents (Elt F)) :
    Cert.ReferenceIdeal.Read.val_main_v13 (F := F) x = Cert.Unfold.windows x := by
  funext j
  obtain ⟨b, w, f, c, rfl⟩ : ∃ (b : Fin 128) (w : Fin 4065) (f : Fin 32) (c : Fin 4), j = ix4 b w f c :=
    ⟨j 0, j 1, j 2, j 3, eq_ix4 j⟩
  exact reference_windows_at x b w f c

end Cert.Unfold.Ref

end
-- ==== Proof.BodyBlock.lean ====
/-
  What one grid point of the kernel leaves in its output block.

  At grid point (bi, wi) the body loads the 159 consecutive sequence positions 128·wi … 128·wi + 158 of the
  64 × 4 × 4127 input block (all 64 batch rows, all 4 channels) and, for every offset f = 0 … 31, stores the
  64 × 128 × 4 array  (b, r, c) ↦ loaded (b, c, r + f)  — a slice of 128 positions starting at f, with the
  channel and position axes exchanged — into lanes 4f … 4f + 3 of the 64 × 128 × 128 output block.  The 32 lane
  groups tile the block, so the block ends as the one function
      (b, r, l) ↦ input (b, l mod 4, 128·wi + r + l div 4).
-/
import proofs.«155097_j34222299414942_2_alg».proof.Proof.Gen.KernelIdeal.Frame
import Idealize.ShloMosaic.Lib.Pipeline.Value
import Idealize.ShloMosaic.Lib.ValueIdx

set_option maxRecDepth 16384

noncomputable section

namespace Cert.Unfold.Kernel

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The stored piece for offset `f`: the 128 positions from `f` of the loaded 64 × 4 × 159 array, with the
    channel and position axes exchanged. -/
def chunk (f : ℕ) (hsl : S64x4x159.Slices ![0, 0, f] S64x4x128) (v3 : Vec F S64x4x159 .f32) : FVec F S64x128x4 .f32 :=
  transpose S64x128x4 [0, 2, 1]
    (extractStridedSlice S64x4x128 ![0, 0, f] (shapeCast S64x4x159 v3 shapeCasts_S64x4x159_S64x4x159) hsl)
    transposes_S64x4x128_p0_2_1_S64x128x4

/-- Entry `(b, r, c)` of the piece for offset `f` is the loaded array at `(b, c, r + f)`. -/
theorem chunk_apply (f : ℕ) (hf : f + 128 ≤ 159) (hsl : S64x4x159.Slices ![0, 0, f] S64x4x128)
    (v3 : Vec F S64x4x159 .f32) (b : Fin 64) (r : Fin 128) (c : Fin 4) :
    chunk f hsl v3 (ix3 b r c) = v3 (ix3 b c ⟨r.val + f, by omega⟩) := by
  unfold chunk
  refine (transpose_apply [0, 2, 1] _ transposes_S64x4x128_p0_2_1_S64x128x4 (ix3 b r c) (ix3 b c r)
    (fun a => match a with | ⟨0, _⟩ => rfl | ⟨1, _⟩ => rfl | ⟨2, _⟩ => rfl)).trans ?_
  refine (extractStridedSlice_apply ![0, 0, f] _ hsl (ix3 b c r) (ix3 b c ⟨r.val + f, by omega⟩)
    (fun a => match a with
      | ⟨0, _⟩ => by show b.val = 0 + b.val; omega
      | ⟨1, _⟩ => by show c.val = 0 + c.val; omega
      | ⟨2, _⟩ => by show r.val + f = f + r.val; omega)).trans ?_
  rw [shapeCast_self]

/-- What the body loads at grid coordinates `i` from a staging buffer holding `x0`. -/
def loaded (i : grid0.Coords) (arg2 : Memref sig .tc .vmem S64x4x4127 .f32) (harg2 : arg2.IsWhole)
    (x0 : Vec F S64x4x4127 .f32) : Vec F S64x4x159 .f32 :=
  View.readAt (Elt F) arg2.view (Rect.unit (s := S64x4x4127) (k0_off1 i) S64x4x159.size (k0_off1_inb i)).toLoadRect
    (harg2.unread x0)

/-- The load starts at position `128 · wi`: entry `(b, c, s)` is `x0` at `(b, c, 128·wi + s)`. -/
theorem loaded_apply (i : grid0.Coords) (arg2 : Memref sig .tc .vmem S64x4x4127 .f32) (harg2 : arg2.IsWhole)
    (x0 : Vec F S64x4x4127 .f32) (b : Fin 64) (c : Fin 4) (s : Fin 159) :
    loaded i arg2 harg2 x0 (ix3 b c s)
      = x0 (ix3 b c ⟨128 * (i 1).val + s.val, by have := (i 1).isLt; have : (i 1).val < 32 := this; omega⟩) := by
  unfold loaded
  rw [View.readAt_eq_ld, harg2.read_unread]
  show x0 _ = x0 _
  refine congrArg x0 (funext fun a => Fin.ext ?_)
  rw [LoadRect.idx_apply]
  show k0_off1 i a + 1 * ((ix3 b c s : S64x4x159.Idx) a).val = _
  rw [k0_off1_eq i]
  match a with
  | ⟨0, _⟩ => show 0 + 1 * b.val = b.val; omega
  | ⟨1, _⟩ => show 0 + 1 * c.val = c.val; omega
  | ⟨2, _⟩ => show 128 * (i 1).val + 1 * s.val = 128 * (i 1).val + s.val; omega

/-- The output block of grid coordinates `i` as one function of the input block `x0`:
    `(b, r, l) ↦ x0 (b, l mod 4, 128·wi + r + l div 4)`. -/
def blockOf (i : grid0.Coords) (x0 : Vec F S64x4x4127 .f32) : Vec F S64x128x128 .f32 :=
  fun y => x0 (ix3 (y 0) ⟨(y 2).val % 4, Nat.mod_lt _ (by decide)⟩
    ⟨128 * (i 1).val + (y 1).val + (y 2).val / 4, by
      have h1 : (i 1).val < 32 := (i 1).isLt
      have h2 : (y 1).val < 128 := (y 1).isLt
      have h3 : (y 2).val < 128 := (y 2).isLt
      omega⟩)

/-- Each stored piece is the restriction of `blockOf` to its lane group `4f … 4f + 3`: at `(b, r, c)` of the piece,
    lane `4f + c` has `(4f + c) mod 4 = c` and `(4f + c) div 4 = f`. -/
theorem piece_at (i : grid0.Coords) (arg2 : Memref sig .tc .vmem S64x4x4127 .f32) (harg2 : arg2.IsWhole)
    (x0 : Vec F S64x4x4127 .f32) (o f : ℕ) (ho : o = 4 * f) (hf : f < 32)
    (inb : ∀ a, (![0, 0, o] : Fin 3 → ℕ) a + S64x128x4.size a ≤ S64x128x128.size a)
    (hsl : S64x4x159.Slices ![0, 0, f] S64x4x128) (b : Fin 64) (r : Fin 128) (c : Fin 4) :
    chunk f hsl (loaded i arg2 harg2 x0) (ix3 b r c)
      = blockOf i x0 ((Rect.unit (s := S64x128x128) ![0, 0, o] S64x128x4.size inb).emb (ix3 b r c)) := by
  subst ho
  have h0 : b.val < 64 := b.isLt
  have h1 : r.val < 128 := r.isLt
  have h2 : c.val < 4 := c.isLt
  have h3 : (i 1).val < 32 := (i 1).isLt
  rw [chunk_apply f (by omega), loaded_apply]
  unfold blockOf
  refine congrArg x0 (funext fun a => Fin.ext ?_)
  match a with
  | ⟨0, _⟩ =>
    show b.val = 0 + 1 * b.val; omega
  | ⟨1, _⟩ =>
    show c.val = (4 * f + 1 * c.val) % 4; omega
  | ⟨2, _⟩ =>
    show 128 * (i 1).val + (r.val + f) = 128 * (i 1).val + (0 + 1 * r.val) + (4 * f + 1 * c.val) / 4; omega

theorem piece_eq (i : grid0.Coords) (arg2 : Memref sig .tc .vmem S64x4x4127 .f32) (harg2 : arg2.IsWhole)
    (x0 : Vec F S64x4x4127 .f32) (o f : ℕ) (ho : o = 4 * f) (hf : f < 32)
    (inb : ∀ a, (![0, 0, o] : Fin 3 → ℕ) a + S64x128x4.size a ≤ S64x128x128.size a)
    (hsl : S64x4x159.Slices ![0, 0, f] S64x4x128)
    (x : (Rect.unit (s := S64x128x128) ![0, 0, o] S64x128x4.size inb).shape.Idx) :
    chunk f hsl (loaded i arg2 harg2 x0) x
      = blockOf i x0 ((Rect.unit (s := S64x128x128) ![0, 0, o] S64x128x4.size inb).emb x) := by
  have hx : x = ix3 (n0 := 64) (n1 := 128) (n2 := 4) (x 0) (x 1) (x 2) := eq_ix3 (n0 := 64) (n1 := 128) (n2 := 4) x
  rw [hx]
  exact piece_at i arg2 harg2 x0 o f ho hf inb hsl (x 0) (x 1) (x 2)

/-- THE BODY'S BLOCK: whatever staging buffers the body runs on, it leaves `blockOf` of the input block in the
    output's. -/
theorem body_block (c : Dev nD) (i : grid0.Coords) (arg2 : Memref sig .tc .vmem S64x4x4127 .f32) (harg2 : arg2.IsWhole)
    (arg3 : Memref sig .tc .vmem S64x128x128 .f32) (harg3 : arg3.IsWhole) (x0 : Vec F S64x4x4127 .f32) :
    out0_A_1 c i arg2 harg2 arg3 harg3 x0 = blockOf i x0 := by
  unfold out0_A_1
  rw [View.read_writes_junk_eq_canon]
  funext y
  refine View.canon_apply_of_pieces (blockOf i x0) _ ?_ y (cover0_A_1 c i arg2 harg2 arg3 harg3 x0 y)
  unfold kernelRun0_A
  dsimp only
  sl_unfold_words
  repeat' (refine List.forall_mem_cons.2 ⟨?_, ?_⟩)
  · intro x; exact piece_eq i arg2 harg2 x0 124 31 rfl (by omega) inb_S64x128x128_S64x128x4_0_0_124 slices_S64x4x159_o0_0_31_S64x4x128 x
  · intro x; exact piece_eq i arg2 harg2 x0 120 30 rfl (by omega) inb_S64x128x128_S64x128x4_0_0_120 slices_S64x4x159_o0_0_30_S64x4x128 x
  · intro x; exact piece_eq i arg2 harg2 x0 116 29 rfl (by omega) inb_S64x128x128_S64x128x4_0_0_116 slices_S64x4x159_o0_0_29_S64x4x128 x
  · intro x; exact piece_eq i arg2 harg2 x0 112 28 rfl (by omega) inb_S64x128x128_S64x128x4_0_0_112 slices_S64x4x159_o0_0_28_S64x4x128 x
  · intro x; exact piece_eq i arg2 harg2 x0 108 27 rfl (by omega) inb_S64x128x128_S64x128x4_0_0_108 slices_S64x4x159_o0_0_27_S64x4x128 x
  · intro x; exact piece_eq i arg2 harg2 x0 104 26 rfl (by omega) inb_S64x128x128_S64x128x4_0_0_104 slices_S64x4x159_o0_0_26_S64x4x128 x
  · intro x; exact piece_eq i arg2 harg2 x0 100 25 rfl (by omega) inb_S64x128x128_S64x128x4_0_0_100 slices_S64x4x159_o0_0_25_S64x4x128 x
  · intro x; exact piece_eq i arg2 harg2 x0 96 24 rfl (by omega) inb_S64x128x128_S64x128x4_0_0_96 slices_S64x4x159_o0_0_24_S64x4x128 x
  · intro x; exact piece_eq i arg2 harg2 x0 92 23 rfl (by omega) inb_S64x128x128_S64x128x4_0_0_92 slices_S64x4x159_o0_0_23_S64x4x128 x
  · intro x; exact piece_eq i arg2 harg2 x0 88 22 rfl (by omega) inb_S64x128x128_S64x128x4_0_0_88 slices_S64x4x159_o0_0_22_S64x4x128 x
  · intro x; exact piece_eq i arg2 harg2 x0 84 21 rfl (by omega) inb_S64x128x128_S64x128x4_0_0_84 slices_S64x4x159_o0_0_21_S64x4x128 x
  · intro x; exact piece_eq i arg2 harg2 x0 80 20 rfl (by omega) inb_S64x128x128_S64x128x4_0_0_80 slices_S64x4x159_o0_0_20_S64x4x128 x
  · intro x; exact piece_eq i arg2 harg2 x0 76 19 rfl (by omega) inb_S64x128x128_S64x128x4_0_0_76 slices_S64x4x159_o0_0_19_S64x4x128 x
  · intro x; exact piece_eq i arg2 harg2 x0 72 18 rfl (by omega) inb_S64x128x128_S64x128x4_0_0_72 slices_S64x4x159_o0_0_18_S64x4x128 x
  · intro x; exact piece_eq i arg2 harg2 x0 68 17 rfl (by omega) inb_S64x128x128_S64x128x4_0_0_68 slices_S64x4x159_o0_0_17_S64x4x128 x
  · intro x; exact piece_eq i arg2 harg2 x0 64 16 rfl (by omega) inb_S64x128x128_S64x128x4_0_0_64 slices_S64x4x159_o0_0_16_S64x4x128 x
  · intro x; exact piece_eq i arg2 harg2 x0 60 15 rfl (by omega) inb_S64x128x128_S64x128x4_0_0_60 slices_S64x4x159_o0_0_15_S64x4x128 x
  · intro x; exact piece_eq i arg2 harg2 x0 56 14 rfl (by omega) inb_S64x128x128_S64x128x4_0_0_56 slices_S64x4x159_o0_0_14_S64x4x128 x
  · intro x; exact piece_eq i arg2 harg2 x0 52 13 rfl (by omega) inb_S64x128x128_S64x128x4_0_0_52 slices_S64x4x159_o0_0_13_S64x4x128 x
  · intro x; exact piece_eq i arg2 harg2 x0 48 12 rfl (by omega) inb_S64x128x128_S64x128x4_0_0_48 slices_S64x4x159_o0_0_12_S64x4x128 x
  · intro x; exact piece_eq i arg2 harg2 x0 44 11 rfl (by omega) inb_S64x128x128_S64x128x4_0_0_44 slices_S64x4x159_o0_0_11_S64x4x128 x
  · intro x; exact piece_eq i arg2 harg2 x0 40 10 rfl (by omega) inb_S64x128x128_S64x128x4_0_0_40 slices_S64x4x159_o0_0_10_S64x4x128 x
  · intro x; exact piece_eq i arg2 harg2 x0 36 9 rfl (by omega) inb_S64x128x128_S64x128x4_0_0_36 slices_S64x4x159_o0_0_9_S64x4x128 x
  · intro x; exact piece_eq i arg2 harg2 x0 32 8 rfl (by omega) inb_S64x128x128_S64x128x4_0_0_32 slices_S64x4x159_o0_0_8_S64x4x128 x
  · intro x; exact piece_eq i arg2 harg2 x0 28 7 rfl (by omega) inb_S64x128x128_S64x128x4_0_0_28 slices_S64x4x159_o0_0_7_S64x4x128 x
  · intro x; exact piece_eq i arg2 harg2 x0 24 6 rfl (by omega) inb_S64x128x128_S64x128x4_0_0_24 slices_S64x4x159_o0_0_6_S64x4x128 x
  · intro x; exact piece_eq i arg2 harg2 x0 20 5 rfl (by omega) inb_S64x128x128_S64x128x4_0_0_20 slices_S64x4x159_o0_0_5_S64x4x128 x
  · intro x; exact piece_eq i arg2 harg2 x0 16 4 rfl (by omega) inb_S64x128x128_S64x128x4_0_0_16 slices_S64x4x159_o0_0_4_S64x4x128 x
  · intro x; exact piece_eq i arg2 harg2 x0 12 3 rfl (by omega) inb_S64x128x128_S64x128x4_0_0_12 slices_S64x4x159_o0_0_3_S64x4x128 x
  · intro x; exact piece_eq i arg2 harg2 x0 8 2 rfl (by omega) inb_S64x128x128_S64x128x4_0_0_8 slices_S64x4x159_o0_0_2_S64x4x128 x
  · intro x; exact piece_eq i arg2 harg2 x0 4 1 rfl (by omega) inb_S64x128x128_S64x128x4_0_0_4 slices_S64x4x159_o0_0_1_S64x4x128 x
  · intro x; exact piece_eq i arg2 harg2 x0 0 0 rfl (by omega) inb_S64x128x128_S64x128x4_0_0_0 slices_S64x4x159_o0_0_0_S64x4x128 x
  · intro p hp; exact absurd hp List.not_mem_nil

end Cert.Unfold.Kernel

end
-- ==== Proof.InputArray.lean ====
/-
  The array the kernel's region reads.

  Before the region the program exchanges the position and channel axes of x : [128, 4096, 4], giving [128, 4, 4096],
  and appends 31 zero positions, giving [128, 4, 4127].  At a position s < 4096 the padded array is therefore
  x at (b, s, c); the appended positions are never read by a window that lies inside the sequence.
-/
import proofs.«155097_j34222299414942_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.Unfold.Kernel

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.Sem

variable {F : FTy → Type} [FloatOps F]
variable (m : (ℓ : Loc nD τ sig) → Buf (Elt F) ℓ)

/-- The region's input array is the argument transposed and padded. -/
theorem input_eq (c : Dev nD) :
    (V m c main_v1 : S128x4x4127.Idx → Elt F .f32)
      = pad S128x4x4127 ![0, 0, 0] ![0, 0, 31] ![0, 0, 0]
          (transpose S128x4x4096 [0, 2, 1] (m ((c : Thread nD τ).loc main_arg0)) transposes_S128x4096x4_S128x4x4096_0_2_1)
          (sitofp .f32 (constantI S_ 32 0#32)) pads_S128x4x4096_S128x4x4127_000_000_0310 h_S_ := by
  dsimp only [Gen.V, Gen.V0]
  simp only [Gen.hostOps0, Gen.hostOps0_1, List.flatten_cons, List.flatten_nil, List.append_nil, List.cons_append,
    List.nil_append]
  after_results
  rfl

/-- At a position inside the sequence the input array is the argument with the two minor axes exchanged. -/
theorem input_apply (c : Dev nD) (b : Fin 128) (ch : Fin 4) (s : Fin 4127) (hs : s.val < 4096) :
    (V m c main_v1 : S128x4x4127.Idx → Elt F .f32) (ix3 b ch s)
      = (m ((c : Thread nD τ).loc main_arg0) : S128x4096x4.Idx → Elt F .f32) (ix3 b ⟨s.val, hs⟩ ch) := by
  rw [input_eq]
  refine (pad_apply_of_inside ![0, 0, 0] ![0, 0, 31] ![0, 0, 0] _ _ pads_S128x4x4096_S128x4x4127_000_000_0310 h_S_
    (ix3 b ch s) (ix3 b ch ⟨s.val, hs⟩) (fun a => match a with
      | ⟨0, _⟩ => by show b.val = 0 + b.val * (0 + 1); omega
      | ⟨1, _⟩ => by show ch.val = 0 + ch.val * (0 + 1); omega
      | ⟨2, _⟩ => by show s.val = 0 + s.val * (0 + 1); omega)).trans ?_
  exact transpose_apply [0, 2, 1] _ transposes_S128x4096x4_S128x4x4096_0_2_1 (ix3 b ch ⟨s.val, hs⟩) (ix3 b ⟨s.val, hs⟩ ch)
    (fun a => match a with | ⟨0, _⟩ => rfl | ⟨1, _⟩ => rfl | ⟨2, _⟩ => rfl)

end Cert.Unfold.Kernel

end
-- ==== Proof.OutputArray.lean ====
/-
  The kernel's output array after the run.

  Grid point (bi, wi) writes back the block of batch rows 64·bi … 64·bi + 63 and windows 128·wi … 128·wi + 127 (the
  last window tile, wi = 31, cut at window 4064, the array's end), all 128 lanes.  What it writes is, at
  (b, w, l), the region's input array at (b, l mod 4, w + l div 4): the body reads positions 128·wi + r + l div 4 of
  its input block, and the input block holds all positions of batch rows 64·bi … 64·bi + 63.  Every index of the
  output array lies in the block of the point (b div 64, w div 128), so the array ends as that one function.
-/
import proofs.«155097_j34222299414942_2_alg».proof.Proof.BodyBlock
import proofs.«155097_j34222299414942_2_alg».proof.Proof.InputArray

set_option maxRecDepth 16384

noncomputable section

namespace Cert.Unfold.Kernel

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

/-- The output array as a function of the region's input array `X`: lane `l` of window `w` is channel `l mod 4`
    of position `w + l div 4`. -/
def lanes (X : S128x4x4127.Idx → Elt F .f32) : S128x4065x128.Idx → Elt F .f32 :=
  fun i => X (ix3 (i 0) ⟨(i 2).val % 4, Nat.mod_lt _ (by decide)⟩
    ⟨(i 1).val + (i 2).val / 4, by
      have h1 : (i 1).val < 4065 := (i 1).isLt
      have h2 : (i 2).val < 128 := (i 2).isLt
      omega⟩)

/-- The printed index maps and edge cuts, decided over the 64 grid points: the input block follows the batch tile and
    spans channels and positions; the output block is at (batch tile, window tile, 0), and its extent on the window axis
    stops at the array's end. -/
theorem idx_facts : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = (grid0.coords t 1).val
    ∧ win0_1.index t (2 : Fin 3) = 0
    ∧ win0_1.index t (0 : Fin 3) ≤ 1 ∧ win0_1.index t (1 : Fin 3) ≤ 31
    ∧ win0_1.xsize (grid0.coords t) (0 : Fin 3) = 64
    ∧ win0_1.index t (1 : Fin 3) * 128 + win0_1.xsize (grid0.coords t) (1 : Fin 3) = min (win0_1.index t (1 : Fin 3) * 128 + 128) 4065
    ∧ win0_1.xsize (grid0.coords t) (2 : Fin 3) = 128 :=
  (by decide +kernel : ∀ t : Fin grid0.N, _)

/-- Every (batch tile, window tile) is some grid point's. -/
theorem idx_onto : ∀ (q0 : Fin 2) (q1 : Fin 32), ∃ t : Fin cfg0.N, win0_1.index t = ![q0.val, q1.val, 0] :=
  (by decide +kernel : ∀ (q0 : Fin 2) (q1 : Fin 32), ∃ t : Fin grid0.N, win0_1.index t = ![q0.val, q1.val, 0])

/-- The input block at point `t`, read at an index, is the region's input array under the block. -/
theorem iblk_apply (c : Dev nD) (t : Fin cfg0.N) (y : S64x4x4127.Idx) :
    iblk m c 0 t y = (V m c main_v1 : S128x4x4127.Idx → Elt F .f32) (((cfg0.win 0).blk t).view.emb y) := rfl

/-- WHAT POINT `t` WRITES BACK is block `t` of `lanes` of the region's input array. -/
theorem flushed_eq (c : Dev nD) (t : Fin cfg0.N) :
    (dats m 0 c).flushed 1 t = ((cfg0.win 1).blk t).view.read (Elt F) (lanes (V m c main_v1)) := by
  show (cfg0.win 1).cut (grid0.coords t) ((dats m 0 c).after 1 t) = _
  rw [after0_1]
  unfold outsAt0
  rw [body_block]
  obtain ⟨e0, e1, e2, e3, e4, e5, e6, e7, e8, e9⟩ := idx_facts t
  funext j
  show blockOf (grid0.coords t) (iblk m c 0 t) ((cfg0.win 1).xinj (grid0.coords t) j)
    = lanes (V m c main_v1) (((cfg0.win 1).blk t).view.emb j)
  unfold blockOf lanes
  dsimp only
  rw [iblk_apply]
  refine congrArg (V m c main_v1 : S128x4x4127.Idx → Elt F .f32) (funext fun a => Fin.ext ?_)
  have hj0 : (j 0).val < win0_1.xsize (grid0.coords t) (0 : Fin 3) := (j 0).isLt
  have hj1 : (j 1).val < win0_1.xsize (grid0.coords t) (1 : Fin 3) := (j 1).isLt
  have hj2 : (j 2).val < win0_1.xsize (grid0.coords t) (2 : Fin 3) := (j 2).isLt
  match a with
  | ⟨0, _⟩ =>
    show win0_0.index t (0 : Fin 3) * 64 + 1 * (j 0).val = win0_1.index t (0 : Fin 3) * 64 + 1 * (j 0).val
    omega
  | ⟨1, _⟩ =>
    show win0_0.index t (1 : Fin 3) * 4 + 1 * ((j 2).val % 4) = (win0_1.index t (2 : Fin 3) * 128 + 1 * (j 2).val) % 4
    omega
  | ⟨2, _⟩ =>
    show win0_0.index t (2 : Fin 3) * 4127 + 1 * (128 * (grid0.coords t 1).val + (j 1).val + (j 2).val / 4)
      = (win0_1.index t (1 : Fin 3) * 128 + 1 * (j 1).val) + (win0_1.index t (2 : Fin 3) * 128 + 1 * (j 2).val) / 4
    omega

/-- An index of the output array is in point `t`'s block iff each coordinate is in the block's range on its axis. -/
theorem mem_blk (t : Fin cfg0.N) (i : S128x4065x128.Idx) :
    i ∈ ((cfg0.win 1).blk t).view.set ↔ ∀ a : Fin 3, win0_1.index t a * S64x128x128.size a ≤ (i a).val
      ∧ (i a).val < win0_1.index t a * S64x128x128.size a + win0_1.xsize (grid0.coords t) a := by
  show i ∈ ((View.whole main_v2).slice (win0_1.rect t)).set ↔ _
  rw [View.set_slice_whole, Rect.mem_set_unit]
  exact Iff.rfl

/-- Every index of the output array is in the block of the point of its batch tile and window tile. -/
theorem covered (i : S128x4065x128.Idx) :
    ∃ t : Fin cfg0.N, (cfg0.win 1).flush t = true ∧ i ∈ ((cfg0.win 1).blk t).view.set := by
  have hi0 : (i 0).val < 128 := (i 0).isLt
  have hi1 : (i 1).val < 4065 := (i 1).isLt
  have hi2 : (i 2).val < 128 := (i 2).isLt
  obtain ⟨t, ht⟩ := idx_onto ⟨(i 0).val / 64, by omega⟩ ⟨(i 1).val / 128, by omega⟩
  have q0 : win0_1.index t (0 : Fin 3) = (i 0).val / 64 := congrFun ht 0
  have q1 : win0_1.index t (1 : Fin 3) = (i 1).val / 128 := congrFun ht 1
  have q2 : win0_1.index t (2 : Fin 3) = 0 := congrFun ht 2
  obtain ⟨e0, e1, e2, e3, e4, e5, e6, e7, e8, e9⟩ := idx_facts t
  refine ⟨t, flush0_1 t, ?_⟩
  rw [mem_blk]
  intro a
  match a with
  | ⟨0, _⟩ =>
    show win0_1.index t (0 : Fin 3) * 64 ≤ (i 0).val ∧ (i 0).val < win0_1.index t (0 : Fin 3) * 64 + win0_1.xsize (grid0.coords t) (0 : Fin 3)
    omega
  | ⟨1, _⟩ =>
    show win0_1.index t (1 : Fin 3) * 128 ≤ (i 1).val ∧ (i 1).val < win0_1.index t (1 : Fin 3) * 128 + win0_1.xsize (grid0.coords t) (1 : Fin 3)
    omega
  | ⟨2, _⟩ =>
    show win0_1.index t (2 : Fin 3) * 128 ≤ (i 2).val ∧ (i 2).val < win0_1.index t (2 : Fin 3) * 128 + win0_1.xsize (grid0.coords t) (2 : Fin 3)
    omega

/-- THE OUTPUT ARRAY after the run is `lanes` of the region's input array. -/
theorem output_eq (c : Dev nD) : (dats m 0 c).arrAt 1 cfg0.N = lanes (V m c main_v1) :=
  (dats m 0 c).arrAt_eq_of_cover 1 (lanes (V m c main_v1)) (fun t _ => flushed_eq m c t) covered

/-- Read at `(b, w, l)` it is the argument at `(b, w + l div 4, l mod 4)`: position `w + l div 4 ≤ 4064 + 31` lies inside
    the sequence, before the appended zeros. -/
theorem output_apply (c : Dev nD) (b : Fin 128) (w : Fin 4065) (l : Fin 128) :
    ((dats m 0 c).arrAt 1 cfg0.N : S128x4065x128.Idx → Elt F .f32) (ix3 b w l)
      = (m ((c : Thread nD τ).loc main_arg0) : S128x4096x4.Idx → Elt F .f32)
          (ix3 b ⟨w.val + l.val / 4, by have := w.isLt; have := l.isLt; omega⟩ ⟨l.val % 4, Nat.mod_lt _ (by decide)⟩) := by
  rw [output_eq]
  unfold lanes
  exact input_apply m c b ⟨l.val % 4, Nat.mod_lt _ (by decide)⟩ ⟨w.val + l.val / 4, by have := w.isLt; have := l.isLt; omega⟩
    (by have := w.isLt; have := l.isLt; show w.val + l.val / 4 < 4096; omega)

end Cert.Unfold.Kernel

end
-- ==== Proof.KernelRun.lean ====
/-
  The kernel's result.

  After the region the program reshapes the output array [128, 4065, 128] to [128, 4065, 32, 4]: entry (b, w, f, c) of
  the result is the output array at (b, w, 4f + c), which is the argument at (b, w + (4f + c) div 4, (4f + c) mod 4)
  = (b, w + f, c).  So the kernel's result is the windows of its argument, and the argument is left as it was.
-/
import proofs.«155097_j34222299414942_2_alg».proof.Proof.OutputArray
import proofs.«155097_j34222299414942_2_alg».proof.Proof.Windows

set_option maxRecDepth 16384

noncomputable section

namespace Cert.Unfold.Kernel

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.Sem

variable {F : FTy → Type} [FloatOps F]
variable (m : (ℓ : Loc nD τ sig) → Buf (Elt F) ℓ) (ρ : Dev nD → PrngReg)

/-- The program's result buffer after the run is the reshape of the output array. -/
theorem tail_eq (c : Dev nD) :
    (Pipeline.afterTail₀ cfgs (dats m) 0 (V0 m) [hostOps1] c main_v3 : S128x4065x32x4.Idx → Elt F .f32)
      = shapeCast S128x4065x32x4 ((dats m 0 c).arrAt 1 cfg0.N : S128x4065x128.Idx → Elt F .f32)
          shapeCasts_S128x4065x128_S128x4065x32x4 := by
  have hw : Pipeline.withArrays (cfgs 0).spec c (V0 m c) (fun w => (dats m 0 c).arrAt w (cfgs 0).N) (Proc.devRef .tc main_v2)
      = (dats m 0 c).arrAt 1 (cfgs 0).N :=
    Pipeline.withArrays_arr (cfgs 0).spec launch0.win.arr_inj c (V0 m c) (fun w => (dats m 0 c).arrAt w (cfgs 0).N) 1
  unfold Pipeline.afterTail₀
  show StableHlo.after hostOps1 _ (Proc.devRef .tc main_v3) = _
  after_results
  rw [hw]
  rfl

/-- Entry `(b, w, f, c)` of the result is the argument at `(b, w + f, c)`. -/
theorem result_apply (c : Dev nD) (b : Fin 128) (w : Fin 4065) (f : Fin 32) (ch : Fin 4) :
    (Pipeline.afterTail₀ cfgs (dats m) 0 (V0 m) [hostOps1] c main_v3 : S128x4065x32x4.Idx → Elt F .f32) (ix4 b w f ch)
      = Cert.Unfold.windows (m ((c : Thread nD τ).loc main_arg0) : S128x4096x4.Idx → Elt F .f32) (ix4 b w f ch) := by
  have hb := b.isLt
  have hw := w.isLt
  have hf := f.isLt
  have hc := ch.isLt
  rw [tail_eq]
  refine (shapeCast_apply _ shapeCasts_S128x4065x128_S128x4065x32x4 (ix4 b w f ch)
    (ix3 b w ⟨4 * f.val + ch.val, by omega⟩) (by
      rw [Shape.rowMajor_val_three, Shape.rowMajor_val_four]
      show (b.val * 4065 + w.val) * 128 + (4 * f.val + ch.val) = ((b.val * 4065 + w.val) * 32 + f.val) * 4 + ch.val
      omega)).trans ?_
  rw [output_apply, Cert.Unfold.windows_apply]
  refine congrArg (m ((c : Thread nD τ).loc main_arg0) : S128x4096x4.Idx → Elt F .f32) (funext fun a => Fin.ext ?_)
  match a with
  | ⟨0, _⟩ => rfl
  | ⟨1, _⟩ => show w.val + (4 * f.val + ch.val) / 4 = w.val + f.val; omega
  | ⟨2, _⟩ => show (4 * f.val + ch.val) % 4 = ch.val; omega

/-- The result is the windows of the argument. -/
theorem result_eq (c : Dev nD) :
    (Pipeline.afterTail₀ cfgs (dats m) 0 (V0 m) [hostOps1] c main_v3 : S128x4065x32x4.Idx → Elt F .f32)
      = Cert.Unfold.windows (m ((c : Thread nD τ).loc main_arg0) : S128x4096x4.Idx → Elt F .f32) := by
  funext j
  obtain ⟨b, w, f, ch, rfl⟩ : ∃ (b : Fin 128) (w : Fin 4065) (f : Fin 32) (ch : Fin 4), j = ix4 b w f ch :=
    ⟨j 0, j 1, j 2, j 3, eq_ix4 j⟩
  exact result_apply m c b w f ch

/-- THE KERNEL'S RUN: every weakly fair execution terminates with the result buffer at the windows of the argument
    and the argument unchanged. -/
theorem run : θ_run defs (onTc (τ := τ) (main (F := F))) ⟨m, fun _ => 0, ρ⟩ fun r => ∀ c : Dev nD,
      r.2.mem ((c : Thread nD τ).loc main_v3)
          = Cert.Unfold.windows (m ((c : Thread nD τ).loc main_arg0) : S128x4096x4.Idx → Elt F .f32)
      ∧ r.2.mem ((c : Thread nD τ).loc main_arg0) = m ((c : Thread nD τ).loc main_arg0) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.Unfold.Kernel

end
-- ==== Proof.lean ====
/-
  Unfolding a sequence into overlapping windows: the kernel against `x[:, idx, :]` with `idx[w, f] = w + f`.

  For x : [128, 4096, 4] both programs produce the array [128, 4065, 32, 4] whose entry (b, w, f, c) is x at (b, w + f, c)
  (Windows.lean).

  The reference gathers along the sequence axis at the start indices w + f; these are not negative, so the wrap-around
  of negative indices leaves them alone, and they are at most 4064 + 31 = 4095, so the gather's clamp does too
  (Reference.lean).

  The kernel exchanges the position and channel axes of x, appends 31 zero positions, and runs a 2 × 32 grid: point
  (bi, wi) loads positions 128·wi … 128·wi + 158 of batch rows 64·bi … 64·bi + 63 and stores, for each offset f, the
  128 positions from f on, transposed back, into lanes 4f … 4f + 3 of its output block (BodyBlock.lean).  Lane l of
  window w therefore holds channel l mod 4 of position w + l div 4; the blocks of the 64 points cover the output array
  [128, 4065, 128], the last window tile cut at the array's end, and no window inside the array reaches the appended
  zeros (InputArray.lean, OutputArray.lean).  The final reshape to [128, 4065, 32, 4] reads lane 4f + c, which is
  channel c of position w + f (KernelRun.lean).

  No arithmetic is done on the values, so the two results are equal for every content of x, finite or not, and the
  idealized kernel is the kernel's own text.
-/
import proofs.«155097_j34222299414942_2_alg».proof.Defs
import proofs.«155097_j34222299414942_2_alg».proof.Proof.Gen.Kernel
import proofs.«155097_j34222299414942_2_alg».proof.Proof.Gen.Kernel.Skeleton
import proofs.«155097_j34222299414942_2_alg».proof.Proof.Gen.Kernel.Launch
import proofs.«155097_j34222299414942_2_alg».proof.Proof.Gen.Kernel.Points
import proofs.«155097_j34222299414942_2_alg».proof.Proof.Gen.Kernel.Frame
import proofs.«155097_j34222299414942_2_alg».proof.Proof.Gen.KernelIdeal
import proofs.«155097_j34222299414942_2_alg».proof.Proof.Gen.KernelIdeal.Skeleton
import proofs.«155097_j34222299414942_2_alg».proof.Proof.Gen.KernelIdeal.Launch
import proofs.«155097_j34222299414942_2_alg».proof.Proof.Gen.KernelIdeal.Points
import proofs.«155097_j34222299414942_2_alg».proof.Proof.Gen.KernelIdeal.Frame
import proofs.«155097_j34222299414942_2_alg».proof.Proof.Gen.ReferenceIdeal
import proofs.«155097_j34222299414942_2_alg».proof.Proof.Gen.Pre_finite_inputs
import proofs.«155097_j34222299414942_2_alg».proof.Proof.Gen.ReferenceIdeal.Run
import proofs.«155097_j34222299414942_2_alg».proof.Proof.Gen.ReferenceIdeal.Read
import proofs.«155097_j34222299414942_2_alg».proof.Proof.Windows
import proofs.«155097_j34222299414942_2_alg».proof.Proof.Reference
import proofs.«155097_j34222299414942_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on x, both programs end with the windows of x. -/
theorem algebraic : Cert.algebraic_KernelIdeal_ReferenceIdeal := by
  intro m ρ m' ρ' _ hagree
  refine ⟨fun c => Cert.Unfold.windows
      (m ((c.tc : Thread Cert.KernelIdeal.nD Cert.KernelIdeal.τ).loc Cert.KernelIdeal.main_arg0)),
    Cert.Unfold.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Unfold.Ref.reference_windows, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
